-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 84
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x32, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x32, .f32⟩
  | .hbm, ⟨74, _⟩ => ⟨S1700000x1, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S100000x128, .f32⟩
  | .hbm, ⟨15, _⟩ => ⟨S100000x64, .f32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x32, .f32⟩
  | .hbm, ⟨114, _⟩ => ⟨S1700000x1, .f32⟩
  | .hbm, ⟨115, _⟩ => ⟨S1700000x32, .f32⟩
  | .hbm, ⟨116, _⟩ => ⟨S1700000x32, .f32⟩
  | .hbm, ⟨117, _⟩ => ⟨S_, .f32⟩
  | .hbm, ⟨118, _⟩ => ⟨S100000x32, .f32⟩
  | .hbm, ⟨119, _⟩ => ⟨S1700000x1, .i32⟩
  | .hbm, ⟨120, _⟩ => ⟨S100000x32, .f32⟩
  | .hbm, ⟨121, _⟩ => ⟨S1x32, .f32⟩
  | .hbm, ⟨122, _⟩ => ⟨S100000x32, .f32⟩
  | .hbm, ⟨123, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel program's run with its result named.

  The program is two matrix-product regions among four stretches of host operations. Every weakly fair
  execution from a memory with zero counters ends, nothing faulting, with the arguments as launched and
  with the result buffer holding what the buffer-contents fold through the program leaves there: the
  contents after the last stretch of host operations, started from the second region's exit contents.
  The run is the launch over the program's segments, as for the frame; what is added is that the last
  thread state is read at the result buffer too.
-/
import proofs.«104810_j29721173688328_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the
    contents the fold through the program's segments leaves there, and each argument ends as launched. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ResultRun

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.Layer1.lean ====
/-
  The first matrix-product region: what its output array holds when the region is left.

  The region walks the 100000 rows of its first operand in ten blocks of 10000 rows. At each block the body
  forms, entry by entry, (x·x)/x of the block, narrows it (a change of float format, the identity on the
  extended reals) and multiplies it by the whole weight matrix into a zero accumulator; the product is
  written back as the same block of rows of the output. Entry (r, q) of the output therefore is the sum over
  k of ((x(r,k)·x(r,k))/x(r,k)) · W(k,q): the host's dot_general of (x·x)/x and W, which is the reference's
  first layer before aggregation. The ten blocks tile the array, so the whole array is that function.
  Stated for any contents of the buffers at the region's entry.
-/
import proofs.«104810_j29721173688328_1_alg».proof.Proof.Gen.KernelIdeal.Frame
import proofs.«104810_j29721173688328_1_alg».proof.Proof.RefRead
import proofs.«104810_j29721173688328_1_alg».proof.Proof.LibPlainMatmul
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

/-- The reference's first dense layer: the host product of (x·x)/x with the weights. -/
abbrev dense1 (X : (⟨S100000x128, .f32⟩ : BufTy).Contents (Elt Ideal)) (W : (⟨S128x64, .f32⟩ : BufTy).Contents (Elt Ideal)) :
    (⟨S100000x64, .f32⟩ : BufTy).Contents (Elt Ideal) :=
  Cert.ReferenceIdeal.Read.val_main_v9 (F := Ideal) X W

theorem hz : (![0, 0] : Fin 2 → Nat) = fun _ => 0 := funext fun a => by fin_cases a <;> rfl

/-- One entry of the body's product is the reference's entry, when row p of the block is row P of the array. -/
theorem pay_entry (x : Vec Ideal S10000x128 .f32) (w : Vec Ideal S128x64 .f32)
    (X : (⟨S100000x128, .f32⟩ : BufTy).Contents (Elt Ideal)) (W : (⟨S128x64, .f32⟩ : BufTy).Contents (Elt Ideal))
    (p : Fin 10000) (q : Fin 64) (P : Fin 100000)
    (hx : ∀ k : Fin 128, x (ix2 p k) = X (ix2 P k))
    (hw : ∀ k : Fin 128, w (ix2 k q) = W (ix2 k q)) :
    k0_pay1 (F := Ideal) x w (ix2 p q) = dense1 X W (ix2 P q) := by
  unfold k0_pay1
  refine ((Cert.PlainMatmul.matmul_zero_apply none _ _ p q).trans ?_).trans
    (Cert.PlainMatmul.dotGeneral_apply none (Cert.ReferenceIdeal.Read.val_main_v8 (F := Ideal) X) W P q).symm
  refine Finset.sum_congr rfl fun k _ => ?_
  show Ideal.div (x (ix2 p k) * x (ix2 p k)) (x (ix2 p k)) * w (ix2 k q) = _
  rw [hx k, hw k] <;> rfl

/-- The same at any index of the block, its two coordinates named. -/
theorem pay_at (x : Vec Ideal S10000x128 .f32) (w : Vec Ideal S128x64 .f32)
    (X : (⟨S100000x128, .f32⟩ : BufTy).Contents (Elt Ideal)) (W : (⟨S128x64, .f32⟩ : BufTy).Contents (Elt Ideal))
    (j : S10000x64.Idx) (p : Fin 10000) (q : Fin 64) (hp : (j 0).val = p.val) (hq : (j 1).val = q.val) (P : Fin 100000)
    (hx : ∀ k : Fin 128, x (ix2 p k) = X (ix2 P k))
    (hw : ∀ k : Fin 128, w (ix2 k q) = W (ix2 k q)) :
    k0_pay1 (F := Ideal) x w j = dense1 X W (ix2 P q) := by
  have hj : j = ix2 p q := by
    funext a; apply Fin.ext
    match a with
    | ⟨0, _⟩ => exact hp
    | ⟨1, _⟩ => exact hq
  subst hj
  exact pay_entry x w X W p q P hx hw

variable (V : (c : Dev nD) → (b : Ref sig .tc) → Buf (Elt Ideal) ((c : Thread nD τ).loc b))

/-- The printed index maps over the ten points: the rows' windows sit at block t, the weights' at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the reference's first dense layer of the arrays the region finds. -/
theorem flushed_eq (c : Dev nD) (t : Fin cfg0.N) :
    (dat0 V c).flushed 2 t = ((cfg0.win 2).blk t).view.read (Elt Ideal) (dense1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e00, e01, e10, e11, e20, e21⟩ := idx_facts t
  have hN : t.val < 10 := lt_of_lt_of_eq t.isLt N_0
  funext j
  have hj0 : (j 0).val < 10000 := (j 0).isLt
  have hj1 : (j 1).val < 64 := (j 1).isLt
  rw [View.read_apply]
  have hemb : ((cfg0.win 2).blk t).view.emb j
      = ix2 (⟨t.val * 10000 + (j 0).val, by omega⟩ : Fin 100000) (⟨(j 1).val, hj1⟩ : Fin 64) := by
    funext a; apply Fin.ext
    match a with
    | ⟨0, _⟩ => show win0_2.index t (0 : Fin 2) * 10000 + 1 * (j 0).val = t.val * 10000 + (j 0).val; omega
    | ⟨1, _⟩ => show win0_2.index t (1 : Fin 2) * 64 + 1 * (j 1).val = (j 1).val; omega
  rw [hemb]
  show k0_pay1 (F := Ideal) (iblk0 V c 0 t) (iblk0 V c 1 t) j = _
  refine pay_at _ _ _ _ j ⟨(j 0).val, hj0⟩ ⟨(j 1).val, hj1⟩ rfl rfl _ (fun k => ?_) (fun k => ?_)
  · unfold iblk0
    rw [View.read_apply]
    show V c main_arg0 (((cfg0.win 0).blk t).view.emb (ix2 (⟨(j 0).val, hj0⟩ : Fin 10000) k)) = V c main_arg0 _
    refine congrArg _ (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 128 + 1 * k.val = k.val; omega
  · unfold iblk0
    rw [View.read_apply]
    show V c main_arg2 (((cfg0.win 1).blk t).view.emb (ix2 k (⟨(j 1).val, hj1⟩ : Fin 64))) = V c main_arg2 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = (j 1).val; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every block of ten is some point's. -/
theorem idx_onto : ∀ b : Fin 10, ∃ t : Fin cfg0.N, win0_2.index t = ![b.val, 0] :=
  (by decide +kernel : ∀ b : Fin 10, ∃ t : Fin grid0.N, win0_2.index t = ![b.val, 0])

/-- The ten blocks of rows cover the output array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array when the region is left: the reference's first dense layer of the arrays the region found. -/
theorem final (c : Dev nD) :
    (dat0 V c).arrAt 2 cfg0.N = dense1 (V c main_arg0) (V c main_arg2) :=
  (dat0 V c).arrAt_eq_of_cover 2 (dense1 (V c main_arg0) (V c main_arg2)) (fun t _ => flushed_eq V c t) (cover)

end Cert.KernelIdeal.Layer1

end
-- ==== Proof.Layer2.lean ====
/-
  The second matrix-product region: what its output array holds when the region is left.

  The region walks the 100000 rows of the aggregated first layer in ten blocks of 10000 rows. At each block
  the body adds the bias (a one-row matrix, broadcast down the rows), takes the maximum with zero, narrows
  (the identity on the extended reals) and multiplies by the whole second weight matrix into a zero
  accumulator; the product is written back as the same block of rows of the output. Entry (r, q) of the
  output therefore is the sum over k of max(a(r,k) + b(k), 0) · W(k,q): the host's dot_general of
  relu(a + b) and W, which is the reference's second layer before aggregation. The ten blocks tile the array.
  Stated for any contents of the buffers at the region's entry whose bias row is the reshaped bias vector.
-/
import proofs.«104810_j29721173688328_1_alg».proof.Proof.Gen.KernelIdeal.Frame
import proofs.«104810_j29721173688328_1_alg».proof.Proof.RefRead
import proofs.«104810_j29721173688328_1_alg».proof.Proof.LibPlainMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)

/-- The reference's second dense layer of an aggregated first layer A: the host product of relu(A + b) with the
    weights, the bias broadcast and the zero splat spelt as the reference spells them. -/
def dense2 (A : FVec Ideal Cert.ReferenceIdeal.S100000x64 .f32) (b : FVec Ideal Cert.ReferenceIdeal.S64 .f32)
    (W : FVec Ideal Cert.ReferenceIdeal.S64x32 .f32) : FVec Ideal Cert.ReferenceIdeal.S100000x32 .f32 :=
  Host.dotGeneral (F := Ideal) Cert.ReferenceIdeal.dot_S100000x64_S64x32_S100000x32_1_0_0_1_n_n none
    (maximumf (addf A (Cert.ReferenceIdeal.Read.val_main_v47 (F := Ideal) b)) (Cert.ReferenceIdeal.Read.val_main_call1_v0 (F := Ideal))) W

theorem hz : (![0, 0] : Fin 2 → Nat) = fun _ => 0 := funext fun a => by fin_cases a <;> rfl

/-- The reference's broadcast bias at (P, k) is the bias vector at k. -/
theorem bias_apply (b : (⟨S64, .f32⟩ : BufTy).Contents (Elt Ideal)) (P : Fin 100000) (k : Fin 64) :
    Cert.ReferenceIdeal.Read.val_main_v47 (F := Ideal) b (ix2 P k) = b (ix1 k) := by
  rw [Cert.ReferenceIdeal.Read.val_main_v47_apply, Cert.ReferenceIdeal.Read.val_main_v46_apply]
  refine congrArg b (funext fun a => Fin.ext ?_)
  match a with
  | ⟨0, _⟩ => rfl

/-- The reference's zero splat at any entry is the zero word. -/
theorem zero_apply (i : Cert.ReferenceIdeal.S100000x64.Idx) :
    Cert.ReferenceIdeal.Read.val_main_call1_v0 (F := Ideal) i = Ideal.ofBits .f32 0x00000000#32 :=
  (Cert.ReferenceIdeal.Read.val_main_call1_v0_apply (F := Ideal) i).trans (Cert.ReferenceIdeal.Read.val_main_call1_cst_apply (F := Ideal) _)

/-- One entry of the body's product is the reference's entry, when row p of the block is row P of the array,
    the block's bias row is the bias vector and the weights are the weights. -/
theorem pay_entry (a : Vec Ideal S10000x64 .f32) (bb : Vec Ideal S1x64 .f32) (w : Vec Ideal S64x32 .f32)
    (A : (⟨S100000x64, .f32⟩ : BufTy).Contents (Elt Ideal)) (b : (⟨S64, .f32⟩ : BufTy).Contents (Elt Ideal))
    (W : (⟨S64x32, .f32⟩ : BufTy).Contents (Elt Ideal))
    (p : Fin 10000) (q : Fin 32) (P : Fin 100000)
    (ha : ∀ k : Fin 64, a (ix2 p k) = A (ix2 P k))
    (hb : ∀ k : Fin 64, bb (ix2 (0 : Fin 1) k) = b (ix1 k))
    (hw : ∀ k : Fin 64, w (ix2 k q) = W (ix2 k q)) :
    k1_pay1 (F := Ideal) a bb w (ix2 p q) = dense2 A b W (ix2 P q) := by
  unfold k1_pay1 dense2
  refine ((Cert.PlainMatmul.matmul_zero_apply none _ _ p q).trans ?_).trans
    (Cert.PlainMatmul.dotGeneral_apply none _ W P q).symm
  refine Finset.sum_congr rfl fun k _ => ?_
  show max (shapeCast S10000x64 a shapeCasts_S10000x64_S10000x64 (ix2 p k)
        + broadcastTo S10000x64 (shapeCast S1x64 bb shapeCasts_S1x64_S1x64) broadcasts_S1x64_S10000x64 (ix2 p k))
      (Ideal.ofBits .f32 0x00000000#32) * w (ix2 k q)
    = max (A (ix2 P k) + Cert.ReferenceIdeal.Read.val_main_v47 (F := Ideal) b (ix2 P k))
      (Cert.ReferenceIdeal.Read.val_main_call1_v0 (F := Ideal) (ix2 P k)) * W (ix2 k q)
  rw [shapeCast_self, shapeCast_self, broadcastTo_1b_ab_apply, bias_apply, zero_apply, ha k, hb k, hw k]

/-- The same at any index of the block, its two coordinates named. -/
theorem pay_at (a : Vec Ideal S10000x64 .f32) (bb : Vec Ideal S1x64 .f32) (w : Vec Ideal S64x32 .f32)
    (A : (⟨S100000x64, .f32⟩ : BufTy).Contents (Elt Ideal)) (b : (⟨S64, .f32⟩ : BufTy).Contents (Elt Ideal))
    (W : (⟨S64x32, .f32⟩ : BufTy).Contents (Elt Ideal))
    (j : S10000x32.Idx) (p : Fin 10000) (q : Fin 32) (hp : (j 0).val = p.val) (hq : (j 1).val = q.val) (P : Fin 100000)
    (ha : ∀ k : Fin 64, a (ix2 p k) = A (ix2 P k))
    (hb : ∀ k : Fin 64, bb (ix2 (0 : Fin 1) k) = b (ix1 k))
    (hw : ∀ k : Fin 64, w (ix2 k q) = W (ix2 k q)) :
    k1_pay1 (F := Ideal) a bb w j = dense2 A b W (ix2 P q) := by
  have hj : j = ix2 p q := by
    funext a; apply Fin.ext
    match a with
    | ⟨0, _⟩ => exact hp
    | ⟨1, _⟩ => exact hq
  subst hj
  exact pay_entry a bb w A b W p q P ha hb hw

variable (V : (c : Dev nD) → (b : Ref sig .tc) → Buf (Elt Ideal) ((c : Thread nD τ).loc b))

/-- The printed index maps over the ten points: the rows' windows sit at block t, the bias' and the weights' at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the reference's second dense layer of the arrays the region finds. -/
theorem flushed_eq (c : Dev nD) (b : (⟨S64, .f32⟩ : BufTy).Contents (Elt Ideal))
    (hb : (V c main_v44 : S1x64.Idx → EReal) = shapeCast S1x64 b shapeCasts_S64_S1x64) (t : Fin cfg1.N) :
    (dat1 V c).flushed 3 t = ((cfg1.win 3).blk t).view.read (Elt Ideal) (dense2 (V c main_v43) b (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x32) hz]
  obtain ⟨e00, e01, e10, e11, e20, e21, e30, e31⟩ := idx_facts t
  have hN : t.val < 10 := lt_of_lt_of_eq t.isLt N_1
  funext j
  have hj0 : (j 0).val < 10000 := (j 0).isLt
  have hj1 : (j 1).val < 32 := (j 1).isLt
  rw [View.read_apply]
  have hemb : ((cfg1.win 3).blk t).view.emb j
      = ix2 (⟨t.val * 10000 + (j 0).val, by omega⟩ : Fin 100000) (⟨(j 1).val, hj1⟩ : Fin 32) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 32 + 1 * (j 1).val = (j 1).val; omega
  rw [hemb]
  show k1_pay1 (F := Ideal) (iblk1 V c 0 t) (iblk1 V c 1 t) (iblk1 V c 2 t) j = _
  refine pay_at _ _ _ _ _ _ j ⟨(j 0).val, hj0⟩ ⟨(j 1).val, hj1⟩ rfl rfl _ (fun k => ?_) (fun k => ?_) (fun k => ?_)
  · unfold iblk1
    rw [View.read_apply]
    show V c main_v43 (((cfg1.win 0).blk t).view.emb (ix2 (⟨(j 0).val, hj0⟩ : Fin 10000) k)) = V c main_v43 _
    refine congrArg _ (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 64 + 1 * k.val = k.val; omega
  · unfold iblk1
    rw [View.read_apply]
    show (V c main_v44 : S1x64.Idx → EReal) (((cfg1.win 1).blk t).view.emb (ix2 (0 : Fin 1) k)) = _
    rw [hb]
    refine (congrArg _ (?_ : ((cfg1.win 1).blk t).view.emb (ix2 (0 : Fin 1) k) = ix2 (0 : Fin 1) k)).trans
      (shapeCast_a_1a_apply b shapeCasts_S64_S1x64 (0 : Fin 1) k)
    funext a; apply Fin.ext
    match a with
    | ⟨0, _⟩ => show win1_1.index t (0 : Fin 2) * 1 + 1 * 0 = 0; omega
    | ⟨1, _⟩ => show win1_1.index t (1 : Fin 2) * 64 + 1 * k.val = k.val; omega
  · unfold iblk1
    rw [View.read_apply]
    show V c main_arg4 (((cfg1.win 2).blk t).view.emb (ix2 k (⟨(j 1).val, hj1⟩ : Fin 32))) = V c main_arg4 _
    refine congrArg _ (funext fun a => Fin.ext ?_)
    match a with
    | ⟨0, _⟩ => show win1_2.index t (0 : Fin 2) * 64 + 1 * k.val = k.val; omega
    | ⟨1, _⟩ => show win1_2.index t (1 : Fin 2) * 32 + 1 * (j 1).val = (j 1).val; omega

/-- An index of the output array is in point t's block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v45).slice (win1_3.rect t)).set ↔ _
  rw [View.set_slice_whole, Rect.mem_set_unit]
  exact Iff.rfl

/-- Every block of ten is some point's. -/
theorem idx_onto : ∀ b : Fin 10, ∃ t : Fin cfg1.N, win1_3.index t = ![b.val, 0] :=
  (by decide +kernel : ∀ b : Fin 10, ∃ t : Fin grid1.N, win1_3.index t = ![b.val, 0])

/-- The ten blocks of rows cover the output array. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- The output array when the region is left: the reference's second dense layer of the arrays the region found. -/
theorem final (c : Dev nD) (b : (⟨S64, .f32⟩ : BufTy).Contents (Elt Ideal))
    (hb : (V c main_v44 : S1x64.Idx → EReal) = shapeCast S1x64 b shapeCasts_S64_S1x64) :
    (dat1 V c).arrAt 3 cfg1.N = dense2 (V c main_v43) b (V c main_arg4) :=
  (dat1 V c).arrAt_eq_of_cover 3 (dense2 (V c main_v43) b (V c main_arg4)) (fun t _ => flushed_eq V c b hb t) (cover)

end Cert.KernelIdeal.Layer2

end
-- ==== Proof.Fold.lean ====
/-
  The contents of the program's buffers at each boundary between its segments, read as the reference's stages.

  The program is: host operations that build, from the edge list, the source and destination index vectors
  (the edges followed by one self-loop per node) and the symmetric normalisation of every edge; the first
  matrix-product region; host operations that gather the product's rows at the sources, scale them by the
  normalisation and add them up at the destinations; the second matrix-product region (bias, rectifier,
  product); the same gather / scale / scatter-add again, and the last bias. The reference runs the same host
  operations on the same index vectors, with a host product where the program has a region, so at every
  boundary each buffer the later segments read holds one of the reference's stages of the arguments:
  the index vectors and the normalisation pass unchanged through both regions and the stretch between them,
  each region's output is the reference's dense layer (the two layer modules), and the two aggregations are
  the reference's own operations applied to equal operands.
-/
import proofs.«104810_j29721173688328_1_alg».proof.Proof.Gen.KernelIdeal.Frame
import proofs.«104810_j29721173688328_1_alg».proof.Proof.RefRead
import proofs.«104810_j29721173688328_1_alg».proof.Proof.Layer1
import proofs.«104810_j29721173688328_1_alg».proof.Proof.Layer2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-- The six arguments as launched, typed as the reference's stages take them. -/
abbrev a0 : (⟨Cert.ReferenceIdeal.S100000x128, .f32⟩ : BufTy).Contents (Elt Ideal) := m ((c : Thread nD τ).loc main_arg0)
abbrev a1 : (⟨Cert.ReferenceIdeal.S2x1600000, .i32⟩ : BufTy).Contents (Elt Ideal) := m ((c : Thread nD τ).loc main_arg1)
abbrev a2 : (⟨Cert.ReferenceIdeal.S128x64, .f32⟩ : BufTy).Contents (Elt Ideal) := m ((c : Thread nD τ).loc main_arg2)
abbrev a3 : (⟨Cert.ReferenceIdeal.S64, .f32⟩ : BufTy).Contents (Elt Ideal) := m ((c : Thread nD τ).loc main_arg3)
abbrev a4 : (⟨Cert.ReferenceIdeal.S64x32, .f32⟩ : BufTy).Contents (Elt Ideal) := m ((c : Thread nD τ).loc main_arg4)
abbrev a5 : (⟨Cert.ReferenceIdeal.S32, .f32⟩ : BufTy).Contents (Elt Ideal) := m ((c : Thread nD τ).loc main_arg5)

/-! ## At the first region's entry: the arguments, the index vectors and the normalisation -/

theorem W3_arg0 : W3 m ρ c (Proc.devRef .tc main_arg0) = a0 m c := by
  dsimp only [W3, W2, W1, hostOps0, hostOps0_1, hostOps0_2]; after_results_simp <;> rfl
theorem W3_arg2 : W3 m ρ c (Proc.devRef .tc main_arg2) = a2 m c := by
  dsimp only [W3, W2, W1, hostOps0, hostOps0_1, hostOps0_2]; after_results_simp <;> rfl
theorem W3_arg3 : W3 m ρ c (Proc.devRef .tc main_arg3) = a3 m c := by
  dsimp only [W3, W2, W1, hostOps0, hostOps0_1, hostOps0_2]; after_results_simp <;> rfl
theorem W3_arg4 : W3 m ρ c (Proc.devRef .tc main_arg4) = a4 m c := by
  dsimp only [W3, W2, W1, hostOps0, hostOps0_1, hostOps0_2]; after_results_simp <;> rfl
theorem W3_arg5 : W3 m ρ c (Proc.devRef .tc main_arg5) = a5 m c := by
  dsimp only [W3, W2, W1, hostOps0, hostOps0_1, hostOps0_2]; after_results_simp <;> rfl

/-- The source index vector: the edges' first row followed by the nodes' own numbers. -/
theorem W3_src : W3 m ρ c (Proc.devRef .tc main_v3) = val_main_v3 (F := Ideal) (a1 m c) := by
  dsimp only [W3, W2, W1, hostOps0, hostOps0_1, hostOps0_2]; after_results_simp <;> rfl
/-- The destination index vector: the edges' second row followed by the nodes' own numbers. -/
theorem W3_dst : W3 m ρ c (Proc.devRef .tc main_v6) = val_main_v6 (F := Ideal) (a1 m c) := by
  dsimp only [W3, W2, W1, hostOps0, hostOps0_1, hostOps0_2]; after_results_simp <;> rfl
/-! The normalisation is built in three stretches of host operations: the in-degrees and their comparison with zero
    and inverse square root; the choice between the inverse square root and zero; the two gathers and their product.
    The last two are read from any contents of the buffers at which their operands are the reference's stages. -/

theorem W1_src : W1 m ρ c (Proc.devRef .tc main_v3) = val_main_v3 (F := Ideal) (a1 m c) := by
  dsimp only [W1, hostOps0]; after_results_simp <;> rfl
theorem W1_dst : W1 m ρ c (Proc.devRef .tc main_v6) = val_main_v6 (F := Ideal) (a1 m c) := by
  dsimp only [W1, hostOps0]; after_results_simp <;> rfl
/-- Where the in-degree is positive. -/
theorem W1_pos : W1 m ρ c (Proc.devRef .tc main_v12) = val_main_v15 (F := Ideal) (a1 m c) := by
  dsimp only [W1, hostOps0]; after_results_simp <;> rfl
/-- The in-degree's inverse square root. -/
theorem W1_rsqrt : W1 m ρ c (Proc.devRef .tc main_v13) = val_main_v16 (F := Ideal) (a1 m c) := by
  dsimp only [W1, hostOps0]; after_results_simp <;> rfl
theorem W1_zero : W1 m ρ c (Proc.devRef .tc main_cst_2) = val_main_cst_2 (F := Ideal) := by
  dsimp only [W1, hostOps0]; after_results_simp <;> rfl

/-- The choice, from any contents at which the comparison, the inverse square root and the zero are the reference's. -/
theorem choice_stage (V : Valuation τ sig (Elt Ideal)) (x1 : (⟨Cert.ReferenceIdeal.S2x1600000, .i32⟩ : BufTy).Contents (Elt Ideal))
    (h12 : V (Proc.devRef .tc main_v12) = val_main_v15 (F := Ideal) x1)
    (h13 : V (Proc.devRef .tc main_v13) = val_main_v16 (F := Ideal) x1)
    (hc : V (Proc.devRef .tc main_cst_2) = val_main_cst_2 (F := Ideal)) :
    StableHlo.after hostOps0_1 V (Proc.devRef .tc main_v14) = val_main_v17 (F := Ideal) x1 := by
  dsimp only [hostOps0_1]; after_results_simp
  unfold val_main_v17 val_main_call0_v1 val_main_call0_v0
  rw [← h12, ← h13, ← hc]
  rfl
theorem choice_keeps_src (V : Valuation τ sig (Elt Ideal)) :
    StableHlo.after hostOps0_1 V (Proc.devRef .tc main_v3) = V (Proc.devRef .tc main_v3) := by
  dsimp only [hostOps0_1]; after_results_simp
theorem choice_keeps_dst (V : Valuation τ sig (Elt Ideal)) :
    StableHlo.after hostOps0_1 V (Proc.devRef .tc main_v6) = V (Proc.devRef .tc main_v6) := by
  dsimp only [hostOps0_1]; after_results_simp

/-- The product of the two gathers, from any contents at which the choice and the index vectors are the reference's. -/
theorem norm_stage (V : Valuation τ sig (Elt Ideal)) (x1 : (⟨Cert.ReferenceIdeal.S2x1600000, .i32⟩ : BufTy).Contents (Elt Ideal))
    (h14 : V (Proc.devRef .tc main_v14) = val_main_v17 (F := Ideal) x1)
    (h3 : V (Proc.devRef .tc main_v3) = val_main_v3 (F := Ideal) x1)
    (h6 : V (Proc.devRef .tc main_v6) = val_main_v6 (F := Ideal) x1) :
    StableHlo.after hostOps0_2 V (Proc.devRef .tc main_v29) = val_main_v32 (F := Ideal) x1 := by
  dsimp only [hostOps0_2]; after_results_simp
  rw [h14, h3, h6]
  rfl

/-- The edges' normalisation: the inverse square root of the in-degree (zero where the degree is not positive)
    read at the source, times the same read at the destination. -/
theorem W3_norm : W3 m ρ c (Proc.devRef .tc main_v29) = val_main_v32 (F := Ideal) (a1 m c) :=
  norm_stage (W2 m ρ c) (a1 m c)
    (choice_stage (W1 m ρ c) (a1 m c) (W1_pos m ρ c) (W1_rsqrt m ρ c) (W1_zero m ρ c))
    ((choice_keeps_src (W1 m ρ c)).trans (W1_src m ρ c))
    ((choice_keeps_dst (W1 m ρ c)).trans (W1_dst m ρ c))

/-! ## At the first region's exit -/

theorem W4_h1 : W4 m ρ c (Proc.devRef .tc main_v30) = val_main_v9 (F := Ideal) (a0 m c) (a2 m c) := by
  refine (W4_arr m ρ c 2).trans ?_
  refine (Cert.KernelIdeal.Layer1.final (V3 m ρ) c).trans ?_
  show val_main_v9 (F := Ideal) (W3 m ρ c (Proc.devRef .tc main_arg0)) (W3 m ρ c (Proc.devRef .tc main_arg2)) = _
  rw [W3_arg0, W3_arg2]
theorem W4_src : W4 m ρ c (Proc.devRef .tc main_v3) = val_main_v3 (F := Ideal) (a1 m c) :=
  (W4_of_ne m ρ c main_v3 (by decide)).trans (W3_src m ρ c)
theorem W4_dst : W4 m ρ c (Proc.devRef .tc main_v6) = val_main_v6 (F := Ideal) (a1 m c) :=
  (W4_of_ne m ρ c main_v6 (by decide)).trans (W3_dst m ρ c)
theorem W4_norm : W4 m ρ c (Proc.devRef .tc main_v29) = val_main_v32 (F := Ideal) (a1 m c) :=
  (W4_of_ne m ρ c main_v29 (by decide)).trans (W3_norm m ρ c)
theorem W4_arg3 : W4 m ρ c (Proc.devRef .tc main_arg3) = a3 m c :=
  (W4_of_ne m ρ c main_arg3 (by decide)).trans (W3_arg3 m ρ c)
theorem W4_arg4 : W4 m ρ c (Proc.devRef .tc main_arg4) = a4 m c :=
  (W4_of_ne m ρ c main_arg4 (by decide)).trans (W3_arg4 m ρ c)
theorem W4_arg5 : W4 m ρ c (Proc.devRef .tc main_arg5) = a5 m c :=
  (W4_of_ne m ρ c main_arg5 (by decide)).trans (W3_arg5 m ρ c)

/-! ## At the second region's entry: the first aggregation and the bias row -/

/-- The first layer aggregated: its rows gathered at the sources, scaled by the normalisation, added up at the
    destinations: the reference's own operations on the reference's own operands. -/
theorem W5_agg1 : W5 m ρ c (Proc.devRef .tc main_v43) = val_main_v45 (F := Ideal) (a0 m c) (a1 m c) (a2 m c) := by
  show StableHlo.after hostOps1 (W4 m ρ c) (Proc.devRef .tc main_v43) = _
  after_results_simp
  rw [W4_h1, W4_src, W4_dst, W4_norm]
  rfl
theorem W5_bias : (W5 m ρ c (Proc.devRef .tc main_v44) : S1x64.Idx → EReal) = shapeCast S1x64 (a3 m c) shapeCasts_S64_S1x64 := by
  show StableHlo.after hostOps1 (W4 m ρ c) (Proc.devRef .tc main_v44) = _
  after_results_simp
  rw [W4_arg3]
  rfl
theorem W5_arg4 : W5 m ρ c (Proc.devRef .tc main_arg4) = a4 m c := by
  show StableHlo.after hostOps1 (W4 m ρ c) (Proc.devRef .tc main_arg4) = _
  after_results_simp
  exact W4_arg4 m ρ c
theorem W5_arg5 : W5 m ρ c (Proc.devRef .tc main_arg5) = a5 m c := by
  show StableHlo.after hostOps1 (W4 m ρ c) (Proc.devRef .tc main_arg5) = _
  after_results_simp
  exact W4_arg5 m ρ c
theorem W5_src : W5 m ρ c (Proc.devRef .tc main_v3) = val_main_v3 (F := Ideal) (a1 m c) := by
  show StableHlo.after hostOps1 (W4 m ρ c) (Proc.devRef .tc main_v3) = _
  after_results_simp
  exact W4_src m ρ c
theorem W5_dst : W5 m ρ c (Proc.devRef .tc main_v6) = val_main_v6 (F := Ideal) (a1 m c) := by
  show StableHlo.after hostOps1 (W4 m ρ c) (Proc.devRef .tc main_v6) = _
  after_results_simp
  exact W4_dst m ρ c
theorem W5_norm : W5 m ρ c (Proc.devRef .tc main_v29) = val_main_v32 (F := Ideal) (a1 m c) := by
  show StableHlo.after hostOps1 (W4 m ρ c) (Proc.devRef .tc main_v29) = _
  after_results_simp
  exact W4_norm m ρ c

/-! ## At the second region's exit -/

/-- The normalisation the reference computes for its second layer is the one it computed for the first: the same
    operations of the same edge list. -/
theorem norm_again (x1 : (⟨Cert.ReferenceIdeal.S2x1600000, .i32⟩ : BufTy).Contents (Elt Ideal)) :
    val_main_v73 (F := Ideal) x1 = val_main_v32 (F := Ideal) x1 := rfl

theorem W6_h2 : W6 m ρ c (Proc.devRef .tc main_v45)
    = val_main_v50 (F := Ideal) (a0 m c) (a1 m c) (a2 m c) (a3 m c) (a4 m c) := by
  refine (W6_arr m ρ c 3).trans ?_
  refine (Cert.KernelIdeal.Layer2.final (V5 m ρ) c (a3 m c) (W5_bias m ρ c)).trans ?_
  show Cert.KernelIdeal.Layer2.dense2 (W5 m ρ c (Proc.devRef .tc main_v43)) (a3 m c) (W5 m ρ c (Proc.devRef .tc main_arg4)) = _
  rw [W5_agg1, W5_arg4]
  rfl
theorem W6_src : W6 m ρ c (Proc.devRef .tc main_v3) = val_main_v3 (F := Ideal) (a1 m c) :=
  (W6_of_ne m ρ c main_v3 (by decide)).trans (W5_src m ρ c)
theorem W6_dst : W6 m ρ c (Proc.devRef .tc main_v6) = val_main_v6 (F := Ideal) (a1 m c) :=
  (W6_of_ne m ρ c main_v6 (by decide)).trans (W5_dst m ρ c)
theorem W6_norm : W6 m ρ c (Proc.devRef .tc main_v29) = val_main_v73 (F := Ideal) (a1 m c) :=
  ((W6_of_ne m ρ c main_v29 (by decide)).trans (W5_norm m ρ c)).trans (norm_again (a1 m c)).symm
theorem W6_arg5 : W6 m ρ c (Proc.devRef .tc main_arg5) = a5 m c :=
  (W6_of_ne m ρ c main_arg5 (by decide)).trans (W5_arg5 m ρ c)

/-! ## The result -/

/-- The program's result buffer ends at the reference's last stage of the arguments as launched. -/
theorem result : W7 m ρ c (Proc.devRef .tc main_v61)
    = val_main_v89 (F := Ideal) (a0 m c) (a1 m c) (a2 m c) (a3 m c) (a4 m c) (a5 m c) := by
  show StableHlo.after hostOps2 (W6 m ρ c) (Proc.devRef .tc main_v61) = _
  after_results_simp
  rw [W6_h2, W6_src, W6_dst, W6_norm, W6_arg5]
  rfl

end Cert.KernelIdeal.Fold

end
-- ==== Proof.Claims.lean ====
/-
  The five claims.

  The three frames: the two programs with regions by the frame of their segments' launch, the reference
  (host operations only) by its run with the result dropped. The idealization rewrote no operation, so
  there is nothing to preserve. The two idealized programs, run from memories that agree on the six
  arguments, both end with the reference's last stage of those arguments in the result buffer: the
  program by its run with the result named and the fold of its buffers' contents read as the reference's
  stages, the reference by its own run.
-/
import proofs.«104810_j29721173688328_1_alg».proof.Defs
import proofs.«104810_j29721173688328_1_alg».proof.Proof.Gen.Kernel.Frame
import proofs.«104810_j29721173688328_1_alg».proof.Proof.Gen.KernelIdeal.Frame
import proofs.«104810_j29721173688328_1_alg».proof.Proof.Gen.Pre_finite_inputs
import proofs.«104810_j29721173688328_1_alg».proof.Proof.RefRun
import proofs.«104810_j29721173688328_1_alg».proof.Proof.RefRead
import proofs.«104810_j29721173688328_1_alg».proof.Proof.KernelRun
import proofs.«104810_j29721173688328_1_alg».proof.Proof.Fold

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's last stage of the (agreeing) arguments in the result buffer. -/
theorem algebraic : Cert.algebraic_KernelIdeal_ReferenceIdeal := by
  intro m ρ m' ρ' _ hagree
  refine ⟨fun c => Cert.ReferenceIdeal.Read.val_main_v89 (F := Ideal) (Cert.KernelIdeal.Fold.a0 m c) (Cert.KernelIdeal.Fold.a1 m c)
      (Cert.KernelIdeal.Fold.a2 m c) (Cert.KernelIdeal.Fold.a3 m c) (Cert.KernelIdeal.Fold.a4 m c) (Cert.KernelIdeal.Fold.a5 m c), ?_, ?_⟩
  · exact (θ_run Cert.KernelIdeal.defs _ _).mono
      (fun _ h c => ⟨(h c).1.trans (Cert.KernelIdeal.Fold.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v89_eq, e0, e1, e2, e3, e4, e5]

end Cert.Proof.Claims

end
-- ==== Proof.lean ====
/- The proof of `Cert.Claim`: a graph-convolution encoder of two layers — per layer a dense product, then every node's
   normalised sum over its in-neighbours (the edges and one self-loop per node) plus a bias, with a rectifier between the
   layers — whose two dense products run as row-tiled matrix-product regions, against the same encoder with host
   products. The modules: Proof/KernelRun.lean (the program's run with its result named), Proof/Layer1.lean and
   Proof/Layer2.lean (each region's output array is the reference's dense layer of what the region finds, entry by
   entry), Proof/Fold.lean (the buffers' contents at every boundary between the program's segments are the reference's
   stages), Proof/Claims.lean (the five claims), over the reference's run and its stages read one operation at a time
   (Proof/RefRun.lean, Proof/RefRead.lean) and Proof/LibPlainMatmul.lean (a plain matrix product at one entry). -/
import proofs.«104810_j29721173688328_1_alg».proof.Defs
import proofs.«104810_j29721173688328_1_alg».proof.Proof.Claims
import proofs.«104810_j29721173688328_1_alg».proof.Proof.Gen.Kernel
import proofs.«104810_j29721173688328_1_alg».proof.Proof.Gen.KernelIdeal
import proofs.«104810_j29721173688328_1_alg».proof.Proof.Gen.ReferenceIdeal
import proofs.«104810_j29721173688328_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
